-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x512x1024 : Shape := ⟨4, ![4, 8, 512, 1024]⟩
abbrev S8x4096x1024 : Shape := ⟨3, ![8, 4096, 1024]⟩
abbrev S8x1x4096 : Shape := ⟨3, ![8, 1, 4096]⟩
abbrev S8x1x1024 : Shape := ⟨3, ![8, 1, 1024]⟩
abbrev S_ : Shape := ⟨0, ![]⟩

class Facts : Prop where
  bcast_S_S4x8x512x1024 : S_.BroadcastsInDim S4x8x512x1024 (![] : Fin 0 → Fin S4x8x512x1024.rank)
  reducesTo_S4x8x512x1024_S_d0_1_2_3 : S4x8x512x1024.ReducesTo [0, 1, 2, 3] S_
  h_S_ : 0 < S_.numel
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S8x1x4096 : S_.BroadcastsInDim S8x1x4096 (![] : Fin 0 → Fin S8x1x4096.rank)
  reducesTo_S8x1x4096_S_d0_1_2 : S8x1x4096.ReducesTo [0, 1, 2] S_
  bcast_S_S8x1x1024 : S_.BroadcastsInDim S8x1x1024 (![] : Fin 0 → Fin S8x1x1024.rank)
  reducesTo_S8x1x1024_S_d0_1_2 : S8x1x1024.ReducesTo [0, 1, 2] S_

variable [Facts]

def fn_part1 {F : FTy → Type} [FloatOps F] (main_arg4 : FVec F S8x1x1024 .f32) (main_v13 : IVec S_ 1) (main_v16 : IVec S8x4096x1024 1) : IVec S_ 1 :=
  let main_c_5 : IVec S_ 1 := constantI S_ 1 1#1
  let main_v17 : IVec S_ 1 := (fun x v => Host.reduce IntOp.andi x v reducesTo_S8x4096x1024_S_d0_1_2 h_S_) main_v16 main_c_5
  let main_v18 : IVec S_ 1 := andi main_v13 main_v17
  let main_v19 : FVec F S8x1x1024 .f32 := Host.absf main_arg4
  let main_cst_6 : FVec F S_ .f32 := constant S_ .f32 0x7F800000#32
  let main_v20 : FVec F S8x1x1024 .f32 := broadcastInDim S8x1x1024 ![] bcast_S_S8x1x1024 main_cst_6
  let main_v21 : IVec S8x1x1024 1 := cmpf .olt main_v19 main_v20
  let main_c_7 : IVec S_ 1 := constantI S_ 1 1#1
  let main_v22 : IVec S_ 1 := (fun x v => Host.reduce IntOp.andi x v reducesTo_S8x1x1024_S_d0_1_2 h_S_) main_v21 main_c_7
  let main_v23 : IVec S_ 1 := andi main_v18 main_v22
  main_v23

def fn {F : FTy → Type} [FloatOps F] (main_arg0 : FVec F S4x8x512x1024 .f32) (main_arg1 : FVec F S8x4096x1024 .f32) (main_arg2 : FVec F S8x1x4096 .f32) (main_arg3 : FVec F S8x4096x1024 .f32) (main_arg4 : FVec F S8x1x1024 .f32) : IVec S_ 1 :=
  let main_v0 : FVec F S4x8x512x1024 .f32 := Host.absf main_arg0
  let main_cst : FVec F S_ .f32 := constant S_ .f32 0x7F800000#32
  let main_v1 : FVec F S4x8x512x1024 .f32 := broadcastInDim S4x8x512x1024 ![] bcast_S_S4x8x512x1024 main_cst
  let main_v2 : IVec S4x8x512x1024 1 := cmpf .olt main_v0 main_v1
  let main_c : IVec S_ 1 := constantI S_ 1 1#1
  let main_v3 : IVec S_ 1 := (fun x v => Host.reduce IntOp.andi x v reducesTo_S4x8x512x1024_S_d0_1_2_3 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S8x1x4096 .f32 := Host.absf main_arg2
  let main_cst_2 : FVec F S_ .f32 := constant S_ .f32 0x7F800000#32
  let main_v10 : FVec F S8x1x4096 .f32 := broadcastInDim S8x1x4096 ![] bcast_S_S8x1x4096 main_cst_2
  let main_v11 : IVec S8x1x4096 1 := cmpf .olt main_v9 main_v10
  let main_c_3 : IVec S_ 1 := constantI S_ 1 1#1
  let main_v12 : IVec S_ 1 := (fun x v => Host.reduce IntOp.andi x v reducesTo_S8x1x4096_S_d0_1_2 h_S_) main_v11 main_c_3
  let main_v13 : IVec S_ 1 := andi main_v8 main_v12
  let main_v14 : FVec F S8x4096x1024 .f32 := Host.absf main_arg3
  let main_cst_4 : FVec F S_ .f32 := constant S_ .f32 0x7F800000#32
  let main_v15 : FVec F S8x4096x1024 .f32 := broadcastInDim S8x4096x1024 ![] bcast_S_S8x4096x1024 main_cst_4
  let main_v16 : IVec S8x4096x1024 1 := cmpf .olt main_v14 main_v15
  fn_part1 (F := F) main_arg4 main_v13 main_v16
-- ==== Kernel.lean ====
abbrev S4x8x512x1024 : Shape := ⟨4, ![4, 8, 512, 1024]⟩
abbrev S8x4096x1024 : Shape := ⟨3, ![8, 4096, 1024]⟩
abbrev S8x1x4096 : Shape := ⟨3, ![8, 1, 4096]⟩
abbrev S8x1x1024 : Shape := ⟨3, ![8, 1, 1024]⟩
abbrev S2x1x512x1024 : Shape := ⟨4, ![2, 1, 512, 1024]⟩
abbrev S1x1024x1024 : Shape := ⟨3, ![1, 1024, 1024]⟩
abbrev S1x1x1024 : Shape := ⟨3, ![1, 1, 1024]⟩
abbrev S2x512x1024 : Shape := ⟨3, ![2, 512, 1024]⟩
abbrev S1024x1024 : Shape := ⟨2, ![1024, 1024]⟩
abbrev S1x1024 : Shape := ⟨2, ![1, 1024]⟩

abbrev nBuf : Space → Nat
  | .hbm => 8
  | .vmem => 12
  | .smem => 0
  | _ => 0

abbrev bufTy : (tb : Table) → Fin (tcTables nBuf tb) → BufTy
  | .hbm, ⟨0, _⟩ => ⟨S4x8x512x1024, .f32⟩
  | .hbm, ⟨1, _⟩ => ⟨S8x4096x1024, .f32⟩
  | .hbm, ⟨2, _⟩ => ⟨S8x1x4096, .f32⟩
  | .hbm, ⟨3, _⟩ => ⟨S8x4096x1024, .f32⟩
  | .hbm, ⟨4, _⟩ => ⟨S8x1x1024, .f32⟩
  | .hbm, ⟨5, _⟩ => ⟨S8x4096x1024, .bf16⟩
  | .hbm, ⟨6, _⟩ => ⟨S8x4096x1024, .bf16⟩
  | .hbm, ⟨7, _⟩ => ⟨S4x8x512x1024, .f32⟩
  | .local _ .vmem, ⟨0, _⟩ => ⟨S2x1x512x1024, .f32⟩
  | .local _ .vmem, ⟨1, _⟩ => ⟨S2x1x512x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S2x1x512x1024, .f32⟩
  | .local _ .vmem, ⟨11, _⟩ => ⟨S2x1x512x1024, .f32⟩
  | _, _ => ⟨S4x8x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S2x1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S2x1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  bitsLt_bf16_f32 : FTy.bits .bf16 < FTy.bits .f32
  inb_S2x1x512x1024_S2x1x512x1024_0_0_0_0 : ∀ a, (![0, 0, 0, 0] : Fin 4 → Nat) a + S2x1x512x1024.size a ≤ S2x1x512x1024.size a
  h_S2x1x512x1024 : 0 < S2x1x512x1024.numel
  shapeCasts_S2x1x512x1024_S2x512x1024 : S2x1x512x1024.ShapeCasts S2x512x1024
  shapeCasts_S2x512x1024_S2x1x512x1024 : S2x512x1024.ShapeCasts S2x1x512x1024
  shapeCasts_S2x512x1024_S1024x1024 : S2x512x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S1024x1024 : S1x1024.Broadcasts S1024x1024
  shapeCasts_S1024x1024_S2x512x1024 : S1024x1024.ShapeCasts S2x512x1024
  shapeCasts_S1x1024_S1x1x1024 : S1x1024.ShapeCasts S1x1x1024
  broadcasts_S1x1x1024_S2x512x1024 : S1x1x1024.Broadcasts S2x512x1024
  dot_S1024x1024_S1024x1024_S1024x1024_1_1_0_0_n_n_wf : DotDims.WF S1024x1024 S1024x1024 S1024x1024 [1] [1] [0] [0] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1x512x1024.size a ≤ S4x8x512x1024.size a
  hwx0_0 : ∀ i : grid0.Coords, EltTy.bits .f32 = 32 ∨ (Rect.block (s := S4x8x512x1024) S2x1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x4096x1024.size a
  hwx0_1 : ∀ i : grid0.Coords, EltTy.bits .bf16 = 32 ∨ (Rect.block (s := S8x4096x1024) S1x1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x4096.size a
  hwx0_2 : ∀ i : grid0.Coords, EltTy.bits .f32 = 32 ∨ (Rect.block (s := S8x1x4096) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S8x4096x1024.size a
  hwx0_3 : ∀ i : grid0.Coords, EltTy.bits .bf16 = 32 ∨ (Rect.block (s := S8x4096x1024) S1x1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S8x1x1024.size a
  hwx0_4 : ∀ i : grid0.Coords, EltTy.bits .f32 = 32 ∨ (Rect.block (s := S8x1x1024) S1x1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x1x512x1024.size a ≤ S4x8x512x1024.size a
  hwx0_5 : ∀ i : grid0.Coords, EltTy.bits .f32 = 32 ∨ (Rect.block (s := S4x8x512x1024) S2x1x512x1024.size (cc0_transform_5 i) (hinb0_5 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S2x1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S2x1x512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x8x512x1024 : Shape := ⟨4, ![4, 8, 512, 1024]⟩
abbrev S8x4096x1024 : Shape := ⟨3, ![8, 4096, 1024]⟩
abbrev S8x1x4096 : Shape := ⟨3, ![8, 1, 4096]⟩
abbrev S8x1x1024 : Shape := ⟨3, ![8, 1, 1024]⟩
abbrev S8x4x512x1024 : Shape := ⟨4, ![8, 4, 512, 1024]⟩
abbrev S8x2048x1024 : Shape := ⟨3, ![8, 2048, 1024]⟩
abbrev S8x2048x4096 : Shape := ⟨3, ![8, 2048, 4096]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4x8x512x1024, .f32⟩
  | .hbm, ⟨1, _⟩ => ⟨S8x4096x1024, .f32⟩
  | .hbm, ⟨2, _⟩ => ⟨S8x1x4096, .f32⟩
  | .hbm, ⟨3, _⟩ => ⟨S8x4096x1024, .f32⟩
  | .hbm, ⟨4, _⟩ => ⟨S8x1x1024, .f32⟩
  | .hbm, ⟨5, _⟩ => ⟨S8x4x512x1024, .f32⟩
  | .hbm, ⟨6, _⟩ => ⟨S8x2048x1024, .f32⟩
  | .hbm, ⟨7, _⟩ => ⟨S8x2048x4096, .f32⟩
  | .hbm, ⟨8, _⟩ => ⟨S8x2048x4096, .f32⟩
  | .hbm, ⟨9, _⟩ => ⟨S8x2048x4096, .f32⟩
  | .hbm, ⟨10, _⟩ => ⟨S_, .f32⟩
  | .hbm, ⟨11, _⟩ => ⟨S8x2048x4096, .f32⟩
  | .hbm, ⟨12, _⟩ => ⟨S8x2048x4096, .f32⟩
  | .hbm, ⟨13, _⟩ => ⟨S8x2048x1024, .f32⟩
  | .hbm, ⟨14, _⟩ => ⟨S8x2048x1024, .f32⟩
  | .hbm, ⟨15, _⟩ => ⟨S8x2048x1024, .f32⟩
  | .hbm, ⟨16, _⟩ => ⟨S8x4x512x1024, .f32⟩
  | .hbm, ⟨17, _⟩ => ⟨S4x8x512x1024, .f32⟩
  | _, _ => ⟨S4x8x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  transposes_S4x8x512x1024_S8x4x512x1024_1_0_2_3 : S4x8x512x1024.Transposes [1, 0, 2, 3] S8x4x512x1024
  shapeCasts_S8x4x512x1024_S8x2048x1024 : S8x4x512x1024.ShapeCasts S8x2048x1024
  bcast_S8x1x4096_S8x2048x4096_0_1_2 : S8x1x4096.BroadcastsInDim S8x2048x4096 (![0, 1, 2] : Fin 3 → Fin S8x2048x4096.rank)
  bcast_S_S8x2048x4096 : S_.BroadcastsInDim S8x2048x4096 (![] : Fin 0 → Fin S8x2048x4096.rank)
  bcast_S8x1x1024_S8x2048x1024_0_1_2 : S8x1x1024.BroadcastsInDim S8x2048x1024 (![0, 1, 2] : Fin 3 → Fin S8x2048x1024.rank)
  shapeCasts_S8x2048x1024_S8x4x512x1024 : S8x2048x1024.ShapeCasts S8x4x512x1024
  transposes_S8x4x512x1024_S4x8x512x1024_1_0_2_3 : S8x4x512x1024.Transposes [1, 0, 2, 3] S4x8x512x1024
  dot_S8x2048x1024_S8x4096x1024_S8x2048x4096_2_2_1_1_0_0_wf : DotDims.WF S8x2048x1024 S8x4096x1024 S8x2048x4096 [2] [2] [1] [1] [0] [0]
  dot_S8x2048x4096_S8x4096x1024_S8x2048x1024_2_1_1_2_0_0_wf : DotDims.WF S8x2048x4096 S8x4096x1024 S8x2048x1024 [2] [1] [1] [2] [0] [0]

variable [Facts₀]

def dot_S8x2048x1024_S8x4096x1024_S8x2048x4096_2_2_1_1_0_0 : DotDims S8x2048x1024 S8x4096x1024 S8x2048x4096 where
  lhsContracting := [2]
  rhsContracting := [2]
  lhsNonContracting := [1]
  rhsNonContracting := [1]
  lhsBatch := [0]
  rhsBatch := [0]
  wf := dot_S8x2048x1024_S8x4096x1024_S8x2048x4096_2_2_1_1_0_0_wf
def dot_S8x2048x4096_S8x4096x1024_S8x2048x1024_2_1_1_2_0_0 : DotDims S8x2048x4096 S8x4096x1024 S8x2048x1024 where
  lhsContracting := [2]
  rhsContracting := [1]
  lhsNonContracting := [1]
  rhsNonContracting := [2]
  lhsBatch := [0]
  rhsBatch := [0]
  wf := dot_S8x2048x4096_S8x4096x1024_S8x2048x1024_2_1_1_2_0_0_wf

class Facts : Prop extends Facts₀ where

variable [Facts]
-- ==== Proof.Layout.lean ====
/-
  Layout operations of the expert MLP's tile, read at an index given by coordinates.

  The tile's body moves between four arrangements of the same numbers: a block `[2, 1, 512, 1024]` of two
  batch rows of one expert, the same block with the unit axis dropped, `[2, 512, 1024]`, and that block
  with its two leading axes merged into one token axis, `[1024, 1024]` (token `p * 512 + i` is row `i` of
  batch row `p`).  A shape cast keeps the row-major position, so each of these reads is one equation
  between row-major positions.  The last lemma reads a bias row `[1, 1, c]` broadcast over `[a, b, c]`.
-/
import Idealize.ShloMosaic.Lib.ValueIdx
import Idealize.ShloMosaic.Lib.Pipeline.Value
import Idealize.ShloMosaic.Lib.ValueLayout

namespace Cert.MlpLayout

open Idealize.ShloMosaic Idealize.ShloMosaic.ValueIdx

variable {α : Type}

/-- An `[a, 1, b, c]` array cast to `[a, b, c]` reads, at `(p, i, j)`, the operand at `(p, 0, i, j)`. -/
theorem shapeCast_a1bc_abc_apply {a b c : ℕ} (x : (⟨4, ![a, 1, b, c]⟩ : Shape).Idx → α)
    (h : (⟨4, ![a, 1, b, c]⟩ : Shape).ShapeCasts ⟨3, ![a, b, c]⟩) (p : Fin a) (i : Fin b) (j : Fin c) :
    shapeCast ⟨3, ![a, b, c]⟩ x h (ix3 p i j) = x (ix4 p (0 : Fin 1) i j) :=
  shapeCast_apply x h _ _ (by
    rw [Shape.rowMajor_val_four, Shape.rowMajor_val_three]
    show ((p.val * 1 + 0) * b + i.val) * c + j.val = (p.val * b + i.val) * c + j.val
    rw [Nat.mul_one, Nat.add_zero])

/-- An `[a, b, c]` array cast to `[a, 1, b, c]` reads, at `(p, u, i, j)`, the operand at `(p, i, j)`. -/
theorem shapeCast_abc_a1bc_apply {a b c : ℕ} (x : (⟨3, ![a, b, c]⟩ : Shape).Idx → α)
    (h : (⟨3, ![a, b, c]⟩ : Shape).ShapeCasts ⟨4, ![a, 1, b, c]⟩) (p : Fin a) (u : Fin 1) (i : Fin b) (j : Fin c) :
    shapeCast ⟨4, ![a, 1, b, c]⟩ x h (ix4 p u i j) = x (ix3 p i j) :=
  shapeCast_apply x h _ _ (by
    have hu : u.val = 0 := by omega
    rw [Shape.rowMajor_val_four, Shape.rowMajor_val_three]
    show (p.val * b + i.val) * c + j.val = ((p.val * 1 + u.val) * b + i.val) * c + j.val
    rw [hu, Nat.mul_one, Nat.add_zero])

/-- An `[a, b, c]` array cast to `[n, c]` with the two leading axes merged reads, at row `r = p * b + i`
    and column `j`, the operand at `(p, i, j)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (i : Fin b) (j : Fin c) (r : Fin n)
    (hr : r.val = p.val * b + i.val) :
    shapeCast ⟨2, ![n, c]⟩ x h (ix2 r j) = x (ix3 p i j) :=
  shapeCast_apply x h _ _ (by
    rw [Shape.rowMajor_val_three, Shape.rowMajor_val_two]
    show (p.val * b + i.val) * c + j.val = r.val * c + j.val
    rw [hr])

/-- An `[n, c]` array cast to `[a, b, c]` with the leading axis split reads, at `(p, i, j)`, the operand at
    row `r = p * b + i` and column `j`. -/
theorem shapeCast_nc_abc_apply {a b c n : ℕ} (x : (⟨2, ![n, c]⟩ : Shape).Idx → α)
    (h : (⟨2, ![n, c]⟩ : Shape).ShapeCasts ⟨3, ![a, b, c]⟩) (p : Fin a) (i : Fin b) (j : Fin c) (r : Fin n)
    (hr : r.val = p.val * b + i.val) :
    shapeCast ⟨3, ![a, b, c]⟩ x h (ix3 p i j) = x (ix2 r j) :=
  shapeCast_apply x h _ _ (by
    rw [Shape.rowMajor_val_three, Shape.rowMajor_val_two]
    show r.val * c + j.val = (p.val * b + i.val) * c + j.val
    rw [hr])

/-- A `[1, 1, c]` row broadcast to `[a, b, c]` reads, at `(p, i, j)`, the row at `j`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (i : Fin b) (j : Fin c) :
    broadcastTo ⟨3, ![a, b, c]⟩ v h (ix3 p i j) = v (ix3 (0 : Fin 1) (0 : Fin 1) j) := by
  refine broadcastTo_apply v h (ix3 p i j) (ix3 (0 : Fin 1) (0 : Fin 1) j) fun ax => ?_
  match ax with
  | ⟨0, _⟩ => rfl
  | ⟨1, _⟩ => rfl
  | ⟨2, _⟩ =>
    show j.val = if c = 1 then 0 else j.val
    split
    · have := j.isLt; omega
    · rfl

end Cert.MlpLayout
-- ==== Proof.Tile.lean ====
/-
  One tile of the expert MLP, read at an index over the extended reals.

  A tile takes a block `x` of two batch rows of one expert (`[2, 1, 512, 1024]`: 1024 tokens of 1024 features),
  1024 rows of the first weight matrix `w1` with their biases `b1`, the matching 1024 rows of the second weight
  matrix `w2`, and the running output `acc`.  At token `(p, i)` and output feature `n` it leaves

      acc (p, i, n) + Σ_j max (Σ_k x (p, i, k) · w1 (j, k) + b1 j) 0 · w2 (j, n),

  the sum over the tile's 1024 hidden units `j` of the rectified first layer times the second weight.  Changes of
  float format are the identity here, a product into a zero accumulator is the plain sum over the contracted
  coordinate, and the shape casts only regroup coordinates (token `p * 512 + i`).  The closing step of a run adds
  the output bias row, and the opening step starts from zero.
-/
import proofs.«141727_j47107201303190_2_alg».proof.Proof.Gen.KernelIdeal.Skeleton
import proofs.«141727_j47107201303190_2_alg».proof.Proof.Layout
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx

/-! ## The two products' operand indices -/

/-- First product (tokens × hidden units, both operands contracted on their feature axis): the left operand's row
    is the output's row. -/
theorem hidden_lhs_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem hidden_lhs_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
/-- … and the right operand's row is the output's column. -/
theorem hidden_rhs_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem hidden_rhs_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- Second product (tokens × output features, contracted on the hidden axis): the left operand's row is the
    output's row, the right operand's column the output's column. -/
theorem out_lhs_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem out_lhs_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem out_rhs_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem out_rhs_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The first product into a zero accumulator, at token `t` and hidden unit `j`: the sum over the features `k` of
    the token's feature times the unit's weight. -/
theorem hidden_dot_apply (l r : FVec Ideal S1024x1024 .bf16) (t j : Fin 1024) :
    matmul dot_S1024x1024_S1024x1024_S1024x1024_1_1_0_0_n_n none l r (constant (F := Ideal) S1024x1024 .f32 0x00000000#32) (ix2 t j)
      = ∑ k : Fin 1024, l (ix2 t k) * r (ix2 j k) := by
  simp only [matmul]
  rw [Ideal.matmul_constant_zero_apply, ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 t j) ((ValueIdx.contrEquiv1 dot_S1024x1024_S1024x1024_S1024x1024_1_1_0_0_n_n 1024 rfl rfl).symm k) = ix2 t k := funext fun a => Fin.ext (by
    match a with
    | ⟨0, _⟩ => exact hidden_lhs_0 _ _
    | ⟨1, _⟩ => exact (hidden_lhs_1 _ _).trans hk)
  have er : dot_S1024x1024_S1024x1024_S1024x1024_1_1_0_0_n_n.rhsIdx (ix2 t j) ((ValueIdx.contrEquiv1 dot_S1024x1024_S1024x1024_S1024x1024_1_1_0_0_n_n 1024 rfl rfl).symm k) = ix2 j k := funext fun a => Fin.ext (by
    match a with
    | ⟨0, _⟩ => exact hidden_rhs_0 _ _
    | ⟨1, _⟩ => exact (hidden_rhs_1 _ _).trans hk)
  rw [el, er]

/-- The second product into a zero accumulator, at token `t` and output feature `n`: the sum over the hidden units
    `j` of the token's activation times the unit's output weight. -/
theorem out_dot_apply (l r : FVec Ideal S1024x1024 .bf16) (t n : Fin 1024) :
    matmul dot_S1024x1024_S1024x1024_S1024x1024_1_0_0_1_n_n none l r (constant (F := Ideal) S1024x1024 .f32 0x00000000#32) (ix2 t n)
      = ∑ j : Fin 1024, l (ix2 t j) * r (ix2 j n) := by
  simp only [matmul]
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 t n) ((ValueIdx.contrEquiv1 dot_S1024x1024_S1024x1024_S1024x1024_1_0_0_1_n_n 1024 rfl rfl).symm k) = ix2 t k := funext fun a => Fin.ext (by
    match a with
    | ⟨0, _⟩ => exact out_lhs_0 _ _
    | ⟨1, _⟩ => exact (out_lhs_1 _ _).trans hk)
  have er : dot_S1024x1024_S1024x1024_S1024x1024_1_0_0_1_n_n.rhsIdx (ix2 t n) ((ValueIdx.contrEquiv1 dot_S1024x1024_S1024x1024_S1024x1024_1_0_0_1_n_n 1024 rfl rfl).symm k) = ix2 k n := funext fun a => Fin.ext (by
    match a with
    | ⟨0, _⟩ => exact (out_rhs_0 _ _).trans hk
    | ⟨1, _⟩ => exact out_rhs_1 _ _)
  rw [el, er]

/-! ## The three stores' values at an index -/

/-- The token `p * 512 + i` of a block of two batch rows. -/
abbrev token (p : Fin 2) (i : Fin 512) : Fin 1024 := ⟨p.val * 512 + i.val, by omega⟩

/-- THE ACCUMULATING STEP at token `(p, i)` and output feature `n`: what was there plus the tile's contribution. -/
theorem step_apply (x : FVec Ideal S2x1x512x1024 .f32) (w1 : FVec Ideal S1x1024x1024 .bf16) (b1 : FVec Ideal S1x1x1024 .f32)
    (w2 : FVec Ideal S1x1024x1024 .bf16) (acc : FVec Ideal S2x1x512x1024 .f32) (p : Fin 2) (u : Fin 1) (i : Fin 512) (n : Fin 1024) :
    k0_pay3 (F := Ideal) x w1 b1 w2 acc (ix4 p u i n)
      = acc (ix4 p (0 : Fin 1) i n)
        + ∑ j : Fin 1024, max ((∑ k : Fin 1024, x (ix4 p (0 : Fin 1) i k) * w1 (ix3 (0 : Fin 1) j k)) + b1 (ix3 (0 : Fin 1) (0 : Fin 1) j)) 0
            * w2 (ix3 (0 : Fin 1) j n) := by
  unfold k0_pay3
  refine (MlpLayout.shapeCast_abc_a1bc_apply _ _ p u i n).trans ?_
  refine (addf_apply _ _ _).trans (congrArg₂ (· + ·) (MlpLayout.shapeCast_a1bc_abc_apply _ _ p i n) ?_)
  refine (MlpLayout.shapeCast_nc_abc_apply _ _ p i n (token p i) rfl).trans ?_
  refine (out_dot_apply _ _ (token p i) n).trans ?_
  refine Finset.sum_congr rfl fun j _ => congrArg₂ (· * ·) ?_ (shapeCast_1ab_ab_apply _ _ j n)
  refine (truncf_apply (φ := .f32) (ψ := .bf16) _ bitsLt_bf16_f32 _).trans ((maximumf_apply _ _ _).trans (congrArg₂ max ?_ Ideal.ofBits_zero_f32))
  refine (addf_apply _ _ _).trans (congrArg₂ (· + ·) ?_ ?_)
  · refine (hidden_dot_apply _ _ (token p i) j).trans ?_
    refine Finset.sum_congr rfl fun k _ => congrArg₂ (· * ·) ?_ (shapeCast_1ab_ab_apply _ _ j k)
    exact (truncf_apply (φ := .f32) (ψ := .bf16) _ bitsLt_bf16_f32 _).trans ((MlpLayout.shapeCast_abc_nc_apply _ _ p i k (token p i) rfl).trans
      (MlpLayout.shapeCast_a1bc_abc_apply _ _ p i k))
  · exact (broadcastTo_1b_ab_apply _ _ (token p i) j).trans (shapeCast_1ab_ab_apply _ _ (0 : Fin 1) j)

/-- THE CLOSING STEP adds the output bias row: at token `(p, i)` and output feature `n`, what was there plus `b2 n`. -/
theorem close_apply (acc : FVec Ideal S2x1x512x1024 .f32) (b2 : FVec Ideal S1x1x1024 .f32) (p : Fin 2) (u : Fin 1) (i : Fin 512) (n : Fin 1024) :
    k0_pay1 (F := Ideal) acc b2 (ix4 p u i n) = acc (ix4 p (0 : Fin 1) i n) + b2 (ix3 (0 : Fin 1) (0 : Fin 1) n) := by
  unfold k0_pay1
  refine (MlpLayout.shapeCast_abc_a1bc_apply _ _ p u i n).trans ?_
  refine (addf_apply _ _ _).trans (congrArg₂ (· + ·) (MlpLayout.shapeCast_a1bc_abc_apply _ _ p i n) ?_)
  exact (MlpLayout.broadcastTo_11c_abc_apply _ _ p i n).trans
    ((shapeCast_ab_1ab_apply _ _ (0 : Fin 1) (0 : Fin 1) n).trans (shapeCast_1ab_ab_apply _ _ (0 : Fin 1) n))

/-- THE OPENING VALUE is zero everywhere. -/
theorem open_apply (p : Fin 2) (u : Fin 1) (i : Fin 512) (n : Fin 1024) :
    k0_pay2 (F := Ideal) (ix4 p u i n) = 0 := by
  unfold k0_pay2
  exact (MlpLayout.shapeCast_abc_a1bc_apply _ _ p u i n).trans Ideal.ofBits_zero_f32

end Cert.KernelIdeal.Tile

end
-- ==== Proof.Blocks.lean ====
/-
  What each input block holds at a grid point, as entries of the argument arrays (over the extended reals).

  The grid has 64 points in the order (expert, batch half, hidden tile): point `t` is expert `t / 8`, batch half
  `t / 4 % 2` and hidden tile `t % 4`.  At that point
    • the input block is the two batch rows `2 * (t / 4 % 2) + p` (`p < 2`) of that expert,
    • the two weight blocks are rows `1024 * (t % 4) + j` (`j < 1024`) of that expert's two weight matrices — the
      arrays the blocks are cut from are the weights after a change of float format, which is the identity here —,
    • the first bias block is the entries `1024 * (t % 4) + j` of that expert's first bias row,
    • the second bias block is that expert's whole second bias row.
  A block's coordinate on an axis is the window's index there times the block's size plus the coordinate inside the
  block; the windows' indices are decided once over the 64 points.
-/
import proofs.«141727_j47107201303190_2_alg».proof.Proof.Gen.KernelIdeal.Frame.Runs
import Idealize.ShloMosaic.Lib.StableHlo.Run
import Idealize.ShloMosaic.Lib.ValueIdx

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.StableHlo

variable (m : (ℓ : Loc nD τ sig) → Buf (Elt Ideal) ℓ)

/-! ## The windows' indices over the grid -/

theorem x_index : ∀ t : Fin cfg0.N, win0_0.index t (0 : Fin 4) = t.val / 4 % 2 ∧ win0_0.index t (1 : Fin 4) = t.val / 8
    ∧ win0_0.index t (2 : Fin 4) = 0 ∧ win0_0.index t (3 : Fin 4) = 0 :=
  (by decide +kernel : ∀ t : Fin grid0.N, _)

theorem w1_index : ∀ t : Fin cfg0.N, win0_1.index t (0 : Fin 3) = t.val / 8 ∧ win0_1.index t (1 : Fin 3) = t.val % 4
    ∧ win0_1.index t (2 : Fin 3) = 0 :=
  (by decide +kernel : ∀ t : Fin grid0.N, _)

theorem b1_index : ∀ t : Fin cfg0.N, win0_2.index t (0 : Fin 3) = t.val / 8 ∧ win0_2.index t (1 : Fin 3) = 0
    ∧ win0_2.index t (2 : Fin 3) = t.val % 4 :=
  (by decide +kernel : ∀ t : Fin grid0.N, _)

theorem w2_index : ∀ t : Fin cfg0.N, win0_3.index t (0 : Fin 3) = t.val / 8 ∧ win0_3.index t (1 : Fin 3) = t.val % 4
    ∧ win0_3.index t (2 : Fin 3) = 0 :=
  (by decide +kernel : ∀ t : Fin grid0.N, _)

theorem b2_index : ∀ t : Fin cfg0.N, win0_4.index t (0 : Fin 3) = t.val / 8 ∧ win0_4.index t (1 : Fin 3) = 0
    ∧ win0_4.index t (2 : Fin 3) = 0 :=
  (by decide +kernel : ∀ t : Fin grid0.N, _)

/-! ## The two weight arrays as the region finds them -/

/-- The first weight array the blocks are cut from is the first weight argument, its float format changed. -/
theorem V_w1 (c : Dev nD) :
    V m c main_v0
      = (truncf (F := Ideal) (s := S8x4096x1024) (φ := .f32) .bf16 (m ((c : Thread nD τ).loc main_arg1)) bitsLt_bf16_f32
          : Buf (Elt Ideal) ((c : Thread nD τ).loc main_v0)) := by
  dsimp only [V, hostOps0]
  after_results

/-- The second weight array likewise. -/
theorem V_w2 (c : Dev nD) :
    V m c main_v1
      = (truncf (F := Ideal) (s := S8x4096x1024) (φ := .f32) .bf16 (m ((c : Thread nD τ).loc main_arg3)) bitsLt_bf16_f32
          : Buf (Elt Ideal) ((c : Thread nD τ).loc main_v1)) := by
  dsimp only [V, hostOps0]
  after_results

/-! ## The blocks -/

/-- The input block at point `t`: batch row `b = 2 * (t / 4 % 2) + p` of expert `e = t / 8`. -/
theorem x_block (c : Dev nD) (t : Fin cfg0.N) (p : Fin 2) (i : Fin 512) (k : Fin 1024) (b : Fin 4) (e : Fin 8)
    (hb : b.val = 2 * (t.val / 4 % 2) + p.val) (he : e.val = t.val / 8) :
    (iblk m c 0 t : Vec Ideal S2x1x512x1024 .f32) (ix4 p (0 : Fin 1) i k)
      = (m ((c : Thread nD τ).loc main_arg0) : S4x8x512x1024.Idx → Ideal .f32) (ix4 b e i k) := by
  obtain ⟨h0, h1, h2, h3⟩ := x_index t
  unfold iblk
  rw [View.read_apply]
  show V m c main_arg0 _ = _
  rw [V_main_arg0]
  refine congrArg _ (funext fun a => Fin.ext ?_)
  match a with
  | ⟨0, _⟩ => show win0_0.index t (0 : Fin 4) * 2 + 1 * p.val = b.val; rw [h0, hb]; omega
  | ⟨1, _⟩ => show win0_0.index t (1 : Fin 4) * 1 + 1 * 0 = e.val; rw [h1, he]; omega
  | ⟨2, _⟩ => show win0_0.index t (2 : Fin 4) * 512 + 1 * i.val = i.val; rw [h2]; omega
  | ⟨3, _⟩ => show win0_0.index t (3 : Fin 4) * 1024 + 1 * k.val = k.val; rw [h3]; omega

/-- The first weight block at point `t`: row `h = 1024 * (t % 4) + j` of expert `e = t / 8`'s first weight matrix. -/
theorem w1_block (c : Dev nD) (t : Fin cfg0.N) (j k : Fin 1024) (e : Fin 8) (h : Fin 4096)
    (he : e.val = t.val / 8) (hh : h.val = 1024 * (t.val % 4) + j.val) :
    (iblk m c 1 t : Vec Ideal S1x1024x1024 .bf16) (ix3 (0 : Fin 1) j k)
      = (m ((c : Thread nD τ).loc main_arg1) : S8x4096x1024.Idx → Ideal .f32) (ix3 e h k) := by
  obtain ⟨h0, h1, h2⟩ := w1_index t
  unfold iblk
  rw [View.read_apply]
  show V m c main_v0 _ = _
  rw [V_w1]
  refine (truncf_apply (φ := .f32) (ψ := .bf16) _ bitsLt_bf16_f32 _).trans (congrArg _ (funext fun a => Fin.ext ?_))
  match a with
  | ⟨0, _⟩ => show win0_1.index t (0 : Fin 3) * 1 + 1 * 0 = e.val; rw [h0, he]; omega
  | ⟨1, _⟩ => show win0_1.index t (1 : Fin 3) * 1024 + 1 * j.val = h.val; rw [h1, hh]; omega
  | ⟨2, _⟩ => show win0_1.index t (2 : Fin 3) * 1024 + 1 * k.val = k.val; rw [h2]; omega

/-- The first bias block at point `t`: entry `h = 1024 * (t % 4) + j` of expert `e = t / 8`'s first bias row. -/
theorem b1_block (c : Dev nD) (t : Fin cfg0.N) (j : Fin 1024) (e : Fin 8) (h : Fin 4096)
    (he : e.val = t.val / 8) (hh : h.val = 1024 * (t.val % 4) + j.val) :
    (iblk m c 2 t : Vec Ideal S1x1x1024 .f32) (ix3 (0 : Fin 1) (0 : Fin 1) j)
      = (m ((c : Thread nD τ).loc main_arg2) : S8x1x4096.Idx → Ideal .f32) (ix3 e (0 : Fin 1) h) := by
  obtain ⟨h0, h1, h2⟩ := b1_index t
  unfold iblk
  rw [View.read_apply]
  show V m c main_arg2 _ = _
  rw [V_main_arg2]
  refine congrArg _ (funext fun a => Fin.ext ?_)
  match a with
  | ⟨0, _⟩ => show win0_2.index t (0 : Fin 3) * 1 + 1 * 0 = e.val; rw [h0, he]; omega
  | ⟨1, _⟩ => show win0_2.index t (1 : Fin 3) * 1 + 1 * 0 = 0; rw [h1]
  | ⟨2, _⟩ => show win0_2.index t (2 : Fin 3) * 1024 + 1 * j.val = h.val; rw [h2, hh]; omega

/-- The second weight block at point `t`: row `h = 1024 * (t % 4) + j` of expert `e = t / 8`'s second weight matrix. -/
theorem w2_block (c : Dev nD) (t : Fin cfg0.N) (j n : Fin 1024) (e : Fin 8) (h : Fin 4096)
    (he : e.val = t.val / 8) (hh : h.val = 1024 * (t.val % 4) + j.val) :
    (iblk m c 3 t : Vec Ideal S1x1024x1024 .bf16) (ix3 (0 : Fin 1) j n)
      = (m ((c : Thread nD τ).loc main_arg3) : S8x4096x1024.Idx → Ideal .f32) (ix3 e h n) := by
  obtain ⟨h0, h1, h2⟩ := w2_index t
  unfold iblk
  rw [View.read_apply]
  show V m c main_v1 _ = _
  rw [V_w2]
  refine (truncf_apply (φ := .f32) (ψ := .bf16) _ bitsLt_bf16_f32 _).trans (congrArg _ (funext fun a => Fin.ext ?_))
  match a with
  | ⟨0, _⟩ => show win0_3.index t (0 : Fin 3) * 1 + 1 * 0 = e.val; rw [h0, he]; omega
  | ⟨1, _⟩ => show win0_3.index t (1 : Fin 3) * 1024 + 1 * j.val = h.val; rw [h1, hh]; omega
  | ⟨2, _⟩ => show win0_3.index t (2 : Fin 3) * 1024 + 1 * n.val = n.val; rw [h2]; omega

/-- The second bias block at point `t`: expert `e = t / 8`'s second bias row. -/
theorem b2_block (c : Dev nD) (t : Fin cfg0.N) (n : Fin 1024) (e : Fin 8) (he : e.val = t.val / 8) :
    (iblk m c 4 t : Vec Ideal S1x1x1024 .f32) (ix3 (0 : Fin 1) (0 : Fin 1) n)
      = (m ((c : Thread nD τ).loc main_arg4) : S8x1x1024.Idx → Ideal .f32) (ix3 e (0 : Fin 1) n) := by
  obtain ⟨h0, h1, h2⟩ := b2_index t
  unfold iblk
  rw [View.read_apply]
  show V m c main_arg4 _ = _
  rw [V_main_arg4]
  refine congrArg _ (funext fun a => Fin.ext ?_)
  match a with
  | ⟨0, _⟩ => show win0_4.index t (0 : Fin 3) * 1 + 1 * 0 = e.val; rw [h0, he]; omega
  | ⟨1, _⟩ => show win0_4.index t (1 : Fin 3) * 1 + 1 * 0 = 0; rw [h1]
  | ⟨2, _⟩ => show win0_4.index t (2 : Fin 3) * 1024 + 1 * n.val = n.val; rw [h2]; omega

end Cert.KernelIdeal.Blocks

end
-- ==== Proof.Spec.lean ====
/-
  The expert MLP as one function of its five argument arrays, index by index, over the extended reals.

  For batch row `b`, expert `e`, token `i` and output feature `n`,

      out (b, e, i, n) = Σ_h max (Σ_k x (b, e, i, k) · w1 (e, h, k) + b1 (e, h)) 0 · w2 (e, h, n)  +  b2 (e, n),

  `h` over the 4096 hidden units and `k` over the 1024 input features: the first layer with its bias, rectified,
  then the second layer with its bias.  `unitTerm` is one hidden unit's contribution.
-/
import Idealize.ShloMosaic.Lib.ValueIdx
import Mathlib.Data.EReal.Basic

noncomputable section

namespace Cert.Mlp

open Idealize.ShloMosaic Idealize.ShloMosaic.ValueIdx

variable (x : (⟨4, ![4, 8, 512, 1024]⟩ : Shape).Idx → EReal) (w1 : (⟨3, ![8, 4096, 1024]⟩ : Shape).Idx → EReal)
  (b1 : (⟨3, ![8, 1, 4096]⟩ : Shape).Idx → EReal) (w2 : (⟨3, ![8, 4096, 1024]⟩ : Shape).Idx → EReal)
  (b2 : (⟨3, ![8, 1, 1024]⟩ : Shape).Idx → EReal)

/-- Hidden unit `h`'s contribution to output feature `n` of token `(b, e, i)`: its rectified pre-activation times its
    output weight. -/
def unitTerm (b : Fin 4) (e : Fin 8) (i : Fin 512) (n : Fin 1024) (h : Fin 4096) : EReal :=
  max ((∑ k : Fin 1024, x (ix4 b e i k) * w1 (ix3 e h k)) + b1 (ix3 e (0 : Fin 1) h)) 0 * w2 (ix3 e h n)

/-- The layer's output at `(b, e, i, n)`. -/
def out (b : Fin 4) (e : Fin 8) (i : Fin 512) (n : Fin 1024) : EReal :=
  (∑ h : Fin 4096, unitTerm x w1 b1 w2 b e i n h) + b2 (ix3 e (0 : Fin 1) n)

end Cert.Mlp

end
-- ==== Proof.SumTiles.lean ====
/-
  A sum over the 4096 hidden units is the sum, over the four tiles of 1024 consecutive units, of each tile's sum.

  Hidden unit `h` lies in tile `h / 1024` at place `h % 1024`; the pairs (tile, place) are in bijection with
  the units, and a sum over pairs is an iterated sum.  Only commutativity and associativity of the addition are
  used, so the statement holds in any commutative additive monoid — the extended reals with their infinities
  included.
-/
import Mathlib.Algebra.BigOperators.Fin
import Mathlib.Logic.Equiv.Fin.Basic
import Mathlib.Algebra.BigOperators.Group.Finset.Sigma

namespace Cert.MlpTiles

/-- The unit at place `j` of tile `s`. -/
abbrev unit (s : Fin 4) (j : Fin 1024) : Fin 4096 := ⟨1024 * s.val + j.val, by omega⟩

theorem sum_units_eq_sum_tiles {β : Type*} [AddCommMonoid β] (f : Fin 4096 → β) :
    ∑ h : Fin 4096, f h = ∑ s : Fin 4, ∑ j : Fin 1024, f (unit s j) := by
  have e : ∑ x : Fin 4 × Fin 1024, f (finProdFinEquiv x) = ∑ h : Fin 4096, f h :=
    Equiv.sum_comp (finProdFinEquiv (m := 4) (n := 1024)) f
  rw [← e, Fintype.sum_prod_type]
  refine Finset.sum_congr rfl fun s _ => Finset.sum_congr rfl fun j _ => congrArg f (Fin.ext ?_)
  show j.val + 1024 * s.val = 1024 * s.val + j.val
  omega

/-- The same with the four tiles written out, accumulated from zero in tile order. -/
theorem sum_units_eq_four {β : Type*} [AddCommMonoid β] (f : Fin 4096 → β) :
    ∑ h : Fin 4096, f h
      = (((0 + ∑ j : Fin 1024, f (unit 0 j)) + ∑ j : Fin 1024, f (unit 1 j)) + ∑ j : Fin 1024, f (unit 2 j))
          + ∑ j : Fin 1024, f (unit 3 j) := by
  rw [sum_units_eq_sum_tiles, Fin.sum_univ_four, zero_add]

end Cert.MlpTiles
-- ==== Proof.Fold.lean ====
/-
  What the output array ends holding, read at an index, is the layer's function `Mlp.out`.

  The output block of batch half `q` of expert `e` is built over a run of four consecutive grid points, one per hidden
  tile: the first starts from zero, each adds its tile's contribution, and the last also adds the second bias row.  At
  token `(p, i)` of the block and output feature `n` the run therefore leaves

      ((((0 + T 0) + T 1) + T 2) + T 3) + b2 (e, n),      T s = Σ_{j < 1024} unitTerm (hidden unit 1024 s + j),

  for batch row `b = 2 q + p`; the four tiles' sums make up the sum over all 4096 hidden units, so this is
  `Mlp.out (b, e, i, n)`.  Run `r` is expert `r / 2`, batch half `r % 2`, and its points are `4 r … 4 r + 3`.
-/
import proofs.«141727_j47107201303190_2_alg».proof.Proof.Gen.KernelIdeal.Value
import proofs.«141727_j47107201303190_2_alg».proof.Proof.Tile
import proofs.«141727_j47107201303190_2_alg».proof.Proof.Blocks
import proofs.«141727_j47107201303190_2_alg».proof.Proof.Spec
import proofs.«141727_j47107201303190_2_alg».proof.Proof.SumTiles

noncomputable section

namespace Cert.KernelIdeal.Fold

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-! ## One point's step, by the point's place in its run -/

/-- At the second and third point of a run the step adds the tile's contribution. -/
theorem step_mid (c : Dev nD) (k : ℕ) (h : k < cfg0.N) (acc : Vec Ideal S2x1x512x1024 .f32) (hk : ¬k % 4 = 0 ∧ ¬k % 4 = 3) :
    Value.step5 m c k h acc
      = k0_pay3 (iblk m c 0 ⟨k, h⟩) (iblk m c 1 ⟨k, h⟩) (iblk m c 2 ⟨k, h⟩) (iblk m c 3 ⟨k, h⟩) acc := by
  unfold Value.step5
  exact if_pos hk

/-- At the last point of a run the step adds the tile's contribution and then the second bias row. -/
theorem step_last (c : Dev nD) (k : ℕ) (h : k < cfg0.N) (acc : Vec Ideal S2x1x512x1024 .f32) (hk0 : ¬k % 4 = 0) (hk3 : k % 4 = 3) :
    Value.step5 m c k h acc
      = k0_pay1 (k0_pay3 (iblk m c 0 ⟨k, h⟩) (iblk m c 1 ⟨k, h⟩) (iblk m c 2 ⟨k, h⟩) (iblk m c 3 ⟨k, h⟩) acc) (iblk m c 4 ⟨k, h⟩) := by
  unfold Value.step5
  rw [if_neg (fun hc => hc.2 hk3), if_pos ⟨hk0, hk3⟩]

/-- THE TILE'S CONTRIBUTION at point `t` (expert `t / 8`, batch half `t / 4 % 2`, hidden tile `t % 4`), over the
    argument arrays: the accumulating step on the point's blocks adds the sum of the tile's 1024 hidden units' terms. -/
theorem tile_term (c : Dev nD) (t : Fin cfg0.N) (acc : FVec Ideal S2x1x512x1024 .f32) (p : Fin 2) (i : Fin 512) (n : Fin 1024)
    (b : Fin 4) (e : Fin 8) (s : Fin 4) (hb : b.val = 2 * (t.val / 4 % 2) + p.val) (he : e.val = t.val / 8) (hs : s.val = t.val % 4) :
    k0_pay3 (F := Ideal) (iblk m c 0 t) (iblk m c 1 t) (iblk m c 2 t) (iblk m c 3 t) acc (ix4 p (0 : Fin 1) i n)
      = acc (ix4 p (0 : Fin 1) i n)
        + ∑ j : Fin 1024, Cert.Mlp.unitTerm (m ((c : Thread nD τ).loc main_arg0)) (m ((c : Thread nD τ).loc main_arg1)) (m ((c : Thread nD τ).loc main_arg2)) (m ((c : Thread nD τ).loc main_arg3)) b e i n (Cert.MlpTiles.unit s j) := by
  refine (Tile.step_apply (iblk m c 0 t) (iblk m c 1 t) (iblk m c 2 t) (iblk m c 3 t) acc p (0 : Fin 1) i n).trans ?_
  refine congrArg (acc (ix4 p (0 : Fin 1) i n) + ·) (Finset.sum_congr rfl fun j _ => ?_)
  unfold Cert.Mlp.unitTerm
  have hh : (Cert.MlpTiles.unit s j).val = 1024 * (t.val % 4) + j.val := by
    show 1024 * s.val + j.val = _
    rw [hs]
  refine congrArg₂ (· * ·) (congrArg₂ max (congrArg₂ (· + ·) (Finset.sum_congr rfl fun k _ => congrArg₂ (· * ·) ?_ ?_) ?_) rfl) ?_
  · exact Blocks.x_block m c t p i k b e hb he
  · exact Blocks.w1_block m c t j k e _ he hh
  · exact Blocks.b1_block m c t j e _ he hh
  · exact Blocks.w2_block m c t j n e _ he hh

/-! ## A whole run -/

/-- Where the four points of run `r` lie: all in expert `r / 2` and batch half `r % 2`, at hidden tiles 0 to 3. -/
theorem places (r b p e : ℕ) (hb : b = 2 * (r % 2) + p) (he : e = r / 2) :
    (b = 2 * ((4 * r) / 4 % 2) + p ∧ e = (4 * r) / 8 ∧ 0 = (4 * r) % 4)
    ∧ (b = 2 * ((4 * r + 1) / 4 % 2) + p ∧ e = (4 * r + 1) / 8 ∧ 1 = (4 * r + 1) % 4)
    ∧ (b = 2 * ((4 * r + 2) / 4 % 2) + p ∧ e = (4 * r + 2) / 8 ∧ 2 = (4 * r + 2) % 4)
    ∧ (b = 2 * ((4 * r + 3) / 4 % 2) + p ∧ e = (4 * r + 3) / 8 ∧ 3 = (4 * r + 3) % 4) := by
  omega

/-- The fold over a run's four points: the reset at the first, a step at each of the other three. -/
theorem unroll (c : Dev nD) (r : ℕ) (h0 : 4 * r < cfg0.N) (h1 : 4 * r + 1 < cfg0.N) (h2 : 4 * r + 2 < cfg0.N) (h3 : 4 * r + 3 < cfg0.N) :
    Pipeline.accAt (Value.reset5 m c) (Value.step5 m c) (4 * r) 3 h3
      = Value.step5 m c (4 * r + 3) h3 (Value.step5 m c (4 * r + 2) h2 (Value.step5 m c (4 * r + 1) h1 (Value.reset5 m c (4 * r) h0))) :=
  (Pipeline.accAt_succ (Value.reset5 m c) (Value.step5 m c) (4 * r) 2 h3).trans
    (congrArg (Value.step5 m c (4 * r + 3) h3)
      ((Pipeline.accAt_succ (Value.reset5 m c) (Value.step5 m c) (4 * r) 1 h2).trans
        (congrArg (Value.step5 m c (4 * r + 2) h2)
          ((Pipeline.accAt_succ (Value.reset5 m c) (Value.step5 m c) (4 * r) 0 h1).trans
            (congrArg (Value.step5 m c (4 * r + 1) h1) (Pipeline.accAt_zero (Value.reset5 m c) (Value.step5 m c) (4 * r) h0))))))

section Points

variable (c : Dev nD) (k : ℕ) (hk : k < cfg0.N) (p : Fin 2) (i : Fin 512) (n : Fin 1024) (b : Fin 4) (e : Fin 8) (s : Fin 4)

/-- The first point of a run starts from zero and adds its tile. -/
theorem first_point (hb : b.val = 2 * (k / 4 % 2) + p.val) (he : e.val = k / 8) (hs : s.val = k % 4) :
    Value.reset5 m c k hk (ix4 p (0 : Fin 1) i n) = 0 + ∑ j : Fin 1024, Cert.Mlp.unitTerm (m ((c : Thread nD τ).loc main_arg0)) (m ((c : Thread nD τ).loc main_arg1)) (m ((c : Thread nD τ).loc main_arg2)) (m ((c : Thread nD τ).loc main_arg3)) b e i n (Cert.MlpTiles.unit s j) := by
  unfold Value.reset5
  refine (tile_term m c ⟨k, hk⟩ (k0_pay2 (F := Ideal)) p i n b e s hb he hs).trans ?_
  rw [Tile.open_apply]

/-- A middle point adds its tile to what the point before left. -/
theorem mid_point (acc : Vec Ideal S2x1x512x1024 .f32) (hmid : ¬k % 4 = 0 ∧ ¬k % 4 = 3)
    (hb : b.val = 2 * (k / 4 % 2) + p.val) (he : e.val = k / 8) (hs : s.val = k % 4) :
    Value.step5 m c k hk acc (ix4 p (0 : Fin 1) i n) = acc (ix4 p (0 : Fin 1) i n) + ∑ j : Fin 1024, Cert.Mlp.unitTerm (m ((c : Thread nD τ).loc main_arg0)) (m ((c : Thread nD τ).loc main_arg1)) (m ((c : Thread nD τ).loc main_arg2)) (m ((c : Thread nD τ).loc main_arg3)) b e i n (Cert.MlpTiles.unit s j) := by
  rw [step_mid m c k hk acc hmid]
  exact tile_term m c ⟨k, hk⟩ acc p i n b e s hb he hs

/-- The last point adds its tile and then the second bias. -/
theorem last_point (acc : Vec Ideal S2x1x512x1024 .f32) (hk0 : ¬k % 4 = 0) (hk3 : k % 4 = 3)
    (hb : b.val = 2 * (k / 4 % 2) + p.val) (he : e.val = k / 8) (hs : s.val = k % 4) :
    Value.step5 m c k hk acc (ix4 p (0 : Fin 1) i n)
      = (acc (ix4 p (0 : Fin 1) i n) + ∑ j : Fin 1024, Cert.Mlp.unitTerm (m ((c : Thread nD τ).loc main_arg0)) (m ((c : Thread nD τ).loc main_arg1)) (m ((c : Thread nD τ).loc main_arg2)) (m ((c : Thread nD τ).loc main_arg3)) b e i n (Cert.MlpTiles.unit s j)) + (m ((c : Thread nD τ).loc main_arg4)) (ix3 e (0 : Fin 1) n) := by
  rw [step_last m c k hk acc hk0 hk3]
  refine (Tile.close_apply _ (iblk m c 4 ⟨k, hk⟩) p (0 : Fin 1) i n).trans ?_
  exact congrArg₂ (· + ·) (tile_term m c ⟨k, hk⟩ acc p i n b e s hb he hs) (Blocks.b2_block m c ⟨k, hk⟩ n e he)

end Points

/-- THE RUN's fold at token `(p, i)` of its block and output feature `n`: run `r` builds batch rows `2 (r % 2) + p` of
    expert `r / 2`, and leaves there the layer's output. -/
theorem run_fold_apply (c : Dev nD) (r : ℕ) (h0 : 4 * r < cfg0.N) (h1 : 4 * r + 1 < cfg0.N) (h2 : 4 * r + 2 < cfg0.N)
    (h3 : 4 * r + 3 < cfg0.N) (p : Fin 2) (i : Fin 512) (n : Fin 1024)
    (b : Fin 4) (e : Fin 8) (hb : b.val = 2 * (r % 2) + p.val) (he : e.val = r / 2) :
    Pipeline.accAt (Value.reset5 m c) (Value.step5 m c) (4 * r) 3 h3 (ix4 p (0 : Fin 1) i n)
      = Cert.Mlp.out (m ((c : Thread nD τ).loc main_arg0)) (m ((c : Thread nD τ).loc main_arg1)) (m ((c : Thread nD τ).loc main_arg2)) (m ((c : Thread nD τ).loc main_arg3)) (m ((c : Thread nD τ).loc main_arg4)) b e i n := by
  obtain ⟨⟨b0, e0, s0⟩, ⟨b1, e1, s1⟩, ⟨b2, e2, s2⟩, ⟨b3, e3, s3⟩⟩ := places r b.val p.val e.val hb he
  rw [unroll m c r h0 h1 h2 h3,
    last_point m c (4 * r + 3) h3 p i n b e 3 _ (fun h => by rw [← s3] at h; exact absurd h (by decide)) s3.symm b3 e3 s3,
    mid_point m c (4 * r + 2) h2 p i n b e 2 _ ⟨fun h => by rw [← s2] at h; exact absurd h (by decide), fun h => by rw [← s2] at h; exact absurd h (by decide)⟩ b2 e2 s2,
    mid_point m c (4 * r + 1) h1 p i n b e 1 _ ⟨fun h => by rw [← s1] at h; exact absurd h (by decide), fun h => by rw [← s1] at h; exact absurd h (by decide)⟩ b1 e1 s1,
    first_point m c (4 * r) h0 p i n b e 0 b0 e0 s0]
  unfold Cert.Mlp.out
  rw [Cert.MlpTiles.sum_units_eq_four]

/-! ## The output array -/

/-- THE OUTPUT ARRAY AT AN INDEX: what the runs leave at `(b, e, i, n)` is the layer's output there. -/
theorem result_apply (c : Dev nD) (b : Fin 4) (e : Fin 8) (i : Fin 512) (n : Fin 1024) :
    Value.G5 m c (ix4 b e i n) = Cert.Mlp.out (m ((c : Thread nD τ).loc main_arg0)) (m ((c : Thread nD τ).loc main_arg1)) (m ((c : Thread nD τ).loc main_arg2)) (m ((c : Thread nD τ).loc main_arg3)) (m ((c : Thread nD τ).loc main_arg4)) b e i n := by
  have hN : cfg0.N = 64 := N_0
  have hb := b.isLt
  have he := e.isLt
  have hi := i.isLt
  have hn := n.isLt
  have hrun : Value.run5Of (ix4 b e i n) = b.val / 2 + 2 * e.val := by
    show 1 * (b.val / 2 - 0) + 2 * (e.val / 1 - 0) + 16 * (i.val / 512 - 0) + 16 * (n.val / 1024 - 0) = _
    omega
  have hloc : Value.loc5Of (ix4 b e i n) = ix4 (⟨b.val % 2, Nat.mod_lt _ (by decide)⟩ : Fin 2) (0 : Fin 1) i n := by
    funext a
    apply Fin.ext
    match a with
    | ⟨0, _⟩ => rfl
    | ⟨1, _⟩ => show e.val % 1 = 0; omega
    | ⟨2, _⟩ => show i.val % 512 = i.val; omega
    | ⟨3, _⟩ => show n.val % 1024 = n.val; omega
  have hlt : 4 * Value.run5Of (ix4 b e i n) + 3 < cfg0.N := by rw [hrun, hN]; omega
  have key : ∀ (r : ℕ) (hr : 4 * r + 3 < cfg0.N), r = b.val / 2 + 2 * e.val →
      Pipeline.accAt (Value.reset5 m c) (Value.step5 m c) (4 * r) 3 hr (Value.loc5Of (ix4 b e i n))
        = Cert.Mlp.out (m ((c : Thread nD τ).loc main_arg0)) (m ((c : Thread nD τ).loc main_arg1)) (m ((c : Thread nD τ).loc main_arg2)) (m ((c : Thread nD τ).loc main_arg3)) (m ((c : Thread nD τ).loc main_arg4)) b e i n := by
    intro r hr hre
    rw [hloc]
    have hr64 : 4 * r + 3 < 64 := hN ▸ hr
    exact run_fold_apply m c r (by rw [hN]; omega) (by rw [hN]; omega) (by rw [hN]; omega) hr ⟨b.val % 2, Nat.mod_lt _ (by decide)⟩ i n b e
      (by show b.val = 2 * (r % 2) + b.val % 2; omega) (by omega)
  show (if h : 4 * Value.run5Of (ix4 b e i n) + 3 < cfg0.N then
      (Pipeline.accAt (Value.reset5 m c) (Value.step5 m c) (4 * Value.run5Of (ix4 b e i n)) 3 h) (Value.loc5Of (ix4 b e i n))
    else V m c (Pipeline.arrRef spec0 5) (ix4 b e i n)) = _
  rw [dif_pos hlt]
  exact key _ hlt hrun

end Cert.KernelIdeal.Fold

end
-- ==== Proof.RefAtIndex.lean ====
/-
  The reference's result, read at an index, is the layer's function `Mlp.out`.

  The reference moves the expert axis to the front and merges batch row and token into one axis of 2048 (token
  `b * 512 + i` of expert `e`), takes the two batched products with their biases and the rectification between them,
  and undoes the rearrangement.  Reading its last stage at `(b, e, i, n)` and following each operation's index map
  back gives, entry by entry, the sum over hidden units and features that `Mlp.out` is; the index maps compose to
  the identities below (row-major positions of literal shapes).
-/
import proofs.«141727_j47107201303190_2_alg».proof.Proof.Gen.ReferenceIdeal.Read
import proofs.«141727_j47107201303190_2_alg».proof.Proof.Spec

noncomputable section

namespace Cert.ReferenceIdeal.AtIndex

open Cert.ReferenceIdeal Cert.ReferenceIdeal.Gen Cert.ReferenceIdeal.Read Idealize.ShloMosaic Idealize.ShloMosaic.ValueIdx

/-- Token `i` of batch row `b` on the merged axis. -/
abbrev merged (b : Fin 4) (i : Fin 512) : Fin 2048 := ⟨b.val * 512 + i.val, by omega⟩

section Indices

variable (b : Fin 4) (e : Fin 8) (i : Fin 512) (n : Fin 1024)

/-- Undoing the final transpose and reshape lands on expert `e`, merged token `(b, i)`, feature `n`. -/
theorem back_to_merged : idx_main_v9 (idx_main_v10 (ix4 b e i n)) = ix3 e (merged b i) n := by
  have hb := b.isLt; have he := e.isLt; have hi := i.isLt; have hn := n.isLt
  funext a; apply Fin.ext
  match a with
  | ⟨0, _⟩ => show (((e.val * 4 + b.val) * 512 + i.val) * 1024 + n.val) / 2097152 = e.val; omega
  | ⟨1, _⟩ => show (((e.val * 4 + b.val) * 512 + i.val) * 1024 + n.val) / 1024 % 2048 = b.val * 512 + i.val; omega
  | ⟨2, _⟩ => show (((e.val * 4 + b.val) * 512 + i.val) * 1024 + n.val) % 1024 = n.val; omega

theorem b2_at (t : Fin 2048) : idx_main_v7 (ix3 e t n) = ix3 e (0 : Fin 1) n := by
  funext a; apply Fin.ext
  match a with
  | ⟨0, _⟩ => rfl
  | ⟨1, _⟩ => rfl
  | ⟨2, _⟩ => rfl

theorem w2_at (t : Fin 2048) (h : Fin 4096) : ridx_main_v6 (ix3 e t n) h = ix3 e h n := by
  funext a; apply Fin.ext
  match a with
  | ⟨0, _⟩ => rfl
  | ⟨1, _⟩ => rfl
  | ⟨2, _⟩ => rfl

theorem hidden_at (t : Fin 2048) (h : Fin 4096) : lidx_main_v6 (ix3 e t n) h = ix3 e t h := by
  funext a; apply Fin.ext
  match a with
  | ⟨0, _⟩ => rfl
  | ⟨1, _⟩ => rfl
  | ⟨2, _⟩ => rfl

theorem b1_at (t : Fin 2048) (h : Fin 4096) : idx_main_v3 (ix3 e t h) = ix3 e (0 : Fin 1) h := by
  funext a; apply Fin.ext
  match a with
  | ⟨0, _⟩ => rfl
  | ⟨1, _⟩ => rfl
  | ⟨2, _⟩ => rfl

theorem w1_at (t : Fin 2048) (h : Fin 4096) (k : Fin 1024) : ridx_main_v2 (ix3 e t h) k = ix3 e h k := by
  funext a; apply Fin.ext
  match a with
  | ⟨0, _⟩ => rfl
  | ⟨1, _⟩ => rfl
  | ⟨2, _⟩ => rfl

/-- The merged token `(b, i)` of expert `e`, feature `k`, is the argument's entry `(b, e, i, k)`. -/
theorem x_at (h : Fin 4096) (k : Fin 1024) :
    idx_main_v0 (idx_main_v1 (lidx_main_v2 (ix3 e (merged b i) h) k)) = ix4 b e i k := by
  have hb := b.isLt; have he := e.isLt; have hi := i.isLt; have hk := k.isLt
  funext a; apply Fin.ext
  match a with
  | ⟨0, _⟩ => show ((e.val * 2048 + (b.val * 512 + i.val)) * 1024 + k.val) / 524288 % 4 = b.val; omega
  | ⟨1, _⟩ => show ((e.val * 2048 + (b.val * 512 + i.val)) * 1024 + k.val) / 2097152 = e.val; omega
  | ⟨2, _⟩ => show ((e.val * 2048 + (b.val * 512 + i.val)) * 1024 + k.val) / 1024 % 512 = i.val; omega
  | ⟨3, _⟩ => show ((e.val * 2048 + (b.val * 512 + i.val)) * 1024 + k.val) % 1024 = k.val; omega

end Indices

/-- THE REFERENCE AT AN INDEX: its last stage at `(b, e, i, n)` is `Mlp.out` of the five arguments. -/
theorem result_apply (x0 : (⟨S4x8x512x1024, .f32⟩ : BufTy).Contents (Elt Ideal)) (x1 : (⟨S8x4096x1024, .f32⟩ : BufTy).Contents (Elt Ideal))
    (x2 : (⟨S8x1x4096, .f32⟩ : BufTy).Contents (Elt Ideal)) (x3 : (⟨S8x4096x1024, .f32⟩ : BufTy).Contents (Elt Ideal))
    (x4 : (⟨S8x1x1024, .f32⟩ : BufTy).Contents (Elt Ideal)) (b : Fin 4) (e : Fin 8) (i : Fin 512) (n : Fin 1024) :
    val_main_v10 (F := Ideal) x0 x1 x2 x3 x4 (ix4 b e i n) = Cert.Mlp.out x0 x1 x2 x3 x4 b e i n := by
  rw [val_main_v10_apply, val_main_v9_apply, back_to_merged, val_main_v8_apply, val_main_v6_apply, val_main_v7_apply, b2_at]
  unfold Cert.Mlp.out
  refine congrArg₂ (· + ·) (Finset.sum_congr rfl fun h _ => ?_) rfl
  rw [w2_at, hidden_at, val_main_v5_apply, val_main_v4_apply, val_main_v2_apply, val_main_v3_apply, b1_at,
    val_main_call0_v0_apply, val_main_call0_cst_apply]
  unfold Cert.Mlp.unitTerm
  refine congrArg₂ (· * ·) (congrArg₂ max (congrArg₂ (· + ·) (Finset.sum_congr rfl fun k _ => ?_) rfl) Ideal.ofBits_zero_f32) rfl
  rw [w1_at, val_main_v1_apply, val_main_v0_apply, x_at]

end Cert.ReferenceIdeal.AtIndex

end
-- ==== Proof.lean ====
/-
  The expert MLP kernel against its reference, over the extended reals.

  Both programs compute, for batch row `b`, expert `e`, token `i` and output feature `n`,

      Σ_h max (Σ_k x (b, e, i, k) · w1 (e, h, k) + b1 (e, h)) 0 · w2 (e, h, n)  +  b2 (e, n)

  (`Mlp.out`).  The reference takes the sum over all 4096 hidden units at once; the kernel takes it in four tiles of 1024
  units, accumulated from zero in the output block, and adds the bias after the last.  The two agree because addition
  on the extended reals is commutative and associative — no distributivity or cancellation is used, so the finiteness of
  the inputs is never needed.  The kernel's changes of float format are the identity on the extended reals.
  The kernel's output array after the run is the fold the runs leave in it (the generated value leg); the reference's
  result is its operations' composed term (the generated run).  `Fold.result_apply` and `AtIndex.result_apply` read the
  two at an index as the same `Mlp.out`.  There is no rewrite between the word-level kernel and its idealization to
  account for.
-/
import proofs.«141727_j47107201303190_2_alg».proof.Defs
import proofs.«141727_j47107201303190_2_alg».proof.Proof.Gen.Kernel.Frame
import proofs.«141727_j47107201303190_2_alg».proof.Proof.Gen.KernelIdeal.Value
import proofs.«141727_j47107201303190_2_alg».proof.Proof.Gen.Pre_finite_inputs
import proofs.«141727_j47107201303190_2_alg».proof.Proof.Gen.ReferenceIdeal.Run
import proofs.«141727_j47107201303190_2_alg».proof.Proof.Gen.ReferenceIdeal.Read
import proofs.«141727_j47107201303190_2_alg».proof.Proof.Fold
import proofs.«141727_j47107201303190_2_alg».proof.Proof.RefAtIndex
import Idealize.ShloMosaic.Adequacy
import Idealize.ShloMosaic.Init

noncomputable section

namespace Cert.Proof

open Idealize.ShloMosaic Idealize.SL.Sem Idealize.ShloMosaic.ValueIdx

/-- The idealized kernel terminates without a fault and leaves its arguments unchanged: its value run, with the result
    dropped. -/
theorem frame_KernelIdeal : frame_KernelIdeal := fun m ρ _ =>
  (θ_run Cert.KernelIdeal.defs _ _).mono (fun _ h c => (h c).2) (Cert.KernelIdeal.Value.run (F := Ideal) m ρ)

/-- The idealized reference likewise: its run, with the result dropped. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories agreeing on the five arguments both programs end with the same result array: at every index
    `(b, e, i, n)` each holds `Mlp.out` of the arguments. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  rw [Cert.ReferenceIdeal.Read.val_main_v10_eq]
  funext j
  obtain ⟨b, e, i, n, rfl⟩ : ∃ (b : Fin 4) (e : Fin 8) (i : Fin 512) (n : Fin 1024), j = ix4 b e i n :=
    ⟨j 0, j 1, j 2, j 3, eq_ix4 j⟩
  rw [Cert.ReferenceIdeal.AtIndex.result_apply]
  exact (Cert.KernelIdeal.Fold.result_apply m c b e i n).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
